-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S27x256x256 : Shape := ⟨3, ![27, 256, 256]⟩
abbrev S1x256 : Shape := ⟨2, ![1, 256]⟩
abbrev S27x30000 : Shape := ⟨2, ![27, 30000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S27x256x256 : S_.BroadcastsInDim S27x256x256 (![] : Fin 0 → Fin S27x256x256.rank)
  reducesTo_S27x256x256_S_d0_1_2 : S27x256x256.ReducesTo [0, 1, 2] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S100000x256 .f32) (main_arg1 : FVec F S27x256x256 .f32) (main_arg2 : FVec F S1x256 .f32) (main_arg3 : IVec S27x30000 32) (main_arg4 : IVec S27x30000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S27x256x256 .f32 := Host.absf main_arg1
  let main_cst_0 : FVec F S_ .f32 := constant S_ .f32 0x7F800000#32
  let main_v5 : FVec F S27x256x256 .f32 := broadcastInDim S27x256x256 ![] bcast_S_S27x256x256 main_cst_0
  let main_v6 : IVec S27x256x256 1 := cmpf .olt main_v4 main_v5
  let main_c_1 : IVec S_ 1 := constantI S_ 1 1#1
  let main_v7 : IVec S_ 1 := (fun x v => Host.reduce IntOp.andi x v reducesTo_S27x256x256_S_d0_1_2 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S100000x256 : Shape := ⟨2, ![100000, 256]⟩
abbrev S27x256x256 : Shape := ⟨3, ![27, 256, 256]⟩
abbrev S1x256 : Shape := ⟨2, ![1, 256]⟩
abbrev S27x30000 : Shape := ⟨2, ![27, 30000]⟩
abbrev S_ : Shape := ⟨0, ![]⟩
abbrev S27x30000x1 : Shape := ⟨3, ![27, 30000, 1]⟩
abbrev S27x30000x256 : Shape := ⟨3, ![27, 30000, 256]⟩
abbrev S1x6000x256 : Shape := ⟨3, ![1, 6000, 256]⟩
abbrev S1x256x256 : Shape := ⟨3, ![1, 256, 256]⟩
abbrev S6000x256 : Shape := ⟨2, ![6000, 256]⟩
abbrev S256x256 : Shape := ⟨2, ![256, 256]⟩
abbrev S810000 : Shape := ⟨1, ![810000]⟩
abbrev S810000x256 : Shape := ⟨2, ![810000, 256]⟩
abbrev S810000x1 : Shape := ⟨2, ![810000, 1]⟩

abbrev nBuf : Space → Nat
  | .hbm => 32
  | .vmem => 6
  | .smem => 0
  | _ => 0

abbrev bufTy : (tb : Table) → Fin (tcTables nBuf tb) → BufTy
  | .hbm, ⟨0, _⟩ => ⟨S100000x256, .f32⟩
  | .hbm, ⟨1, _⟩ => ⟨S27x256x256, .f32⟩
  | .hbm, ⟨2, _⟩ => ⟨S1x256, .f32⟩
  | .hbm, ⟨3, _⟩ => ⟨S27x30000, .i32⟩
  | .hbm, ⟨4, _⟩ => ⟨S27x30000, .i32⟩
  | .hbm, ⟨5, _⟩ => ⟨S100000x256, .bf16⟩
  | .hbm, ⟨6, _⟩ => ⟨S27x256x256, .bf16⟩
  | .hbm, ⟨7, _⟩ => ⟨S_, .i32⟩
  | .hbm, ⟨8, _⟩ => ⟨S27x30000, .i32⟩
  | .hbm, ⟨9, _⟩ => ⟨S27x30000, .i1⟩
  | .hbm, ⟨10, _⟩ => ⟨S_, .i32⟩
  | .hbm, ⟨11, _⟩ => ⟨S27x30000, .i32⟩
  | .hbm, ⟨12, _⟩ => ⟨S27x30000, .i32⟩
  | .hbm, ⟨13, _⟩ => ⟨S27x30000, .i32⟩
  | .hbm, ⟨14, _⟩ => ⟨S27x30000x1, .i32⟩
  | .hbm, ⟨15, _⟩ => ⟨S27x30000x256, .bf16⟩
  | .hbm, ⟨16, _⟩ => ⟨S27x30000x256, .f32⟩
  | .hbm, ⟨17, _⟩ => ⟨S_, .f32⟩
  | .hbm, ⟨18, _⟩ => ⟨S100000x256, .f32⟩
  | .hbm, ⟨19, _⟩ => ⟨S810000, .i32⟩
  | .hbm, ⟨20, _⟩ => ⟨S810000x256, .f32⟩
  | .hbm, ⟨21, _⟩ => ⟨S_, .i32⟩
  | .hbm, ⟨22, _⟩ => ⟨S810000, .i32⟩
  | .hbm, ⟨23, _⟩ => ⟨S810000, .i1⟩
  | .hbm, ⟨24, _⟩ => ⟨S_, .i32⟩
  | .hbm, ⟨25, _⟩ => ⟨S810000, .i32⟩
  | .hbm, ⟨26, _⟩ => ⟨S810000, .i32⟩
  | .hbm, ⟨27, _⟩ => ⟨S810000, .i32⟩
  | .hbm, ⟨28, _⟩ => ⟨S810000x1, .i32⟩
  | .hbm, ⟨29, _⟩ => ⟨S100000x256, .f32⟩
  | .hbm, ⟨30, _⟩ => ⟨S100000x256, .f32⟩
  | .hbm, ⟨31, _⟩ => ⟨S100000x256, .f32⟩
  | .local _ .vmem, ⟨0, _⟩ => ⟨S1x6000x256, .bf16⟩
  | .local _ .vmem, ⟨1, _⟩ => ⟨S1x6000x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x6000x256, .f32⟩
  | .local _ .vmem, ⟨5, _⟩ => ⟨S1x6000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  bcast_S_S27x30000 : S_.BroadcastsInDim S27x30000 (![] : Fin 0 → Fin S27x30000.rank)
  bcast_S27x30000_S27x30000x1_0_1 : S27x30000.BroadcastsInDim S27x30000x1 (![0, 1] : Fin 2 → Fin S27x30000x1.rank)
  inb_S1x6000x256_S1x6000x256_0_0_0 : ∀ a, (![0, 0, 0] : Fin 3 → Nat) a + S1x6000x256.size a ≤ S1x6000x256.size a
  h_S1x6000x256 : 0 < S1x6000x256.numel
  shapeCasts_S1x6000x256_S6000x256 : S1x6000x256.ShapeCasts S6000x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S6000x256_S1x6000x256 : S6000x256.ShapeCasts S1x6000x256
  bcast_S_S100000x256 : S_.BroadcastsInDim S100000x256 (![] : Fin 0 → Fin S100000x256.rank)
  shapeCasts_S27x30000_S810000 : S27x30000.ShapeCasts S810000
  shapeCasts_S27x30000x256_S810000x256 : S27x30000x256.ShapeCasts S810000x256
  bcast_S_S810000 : S_.BroadcastsInDim S810000 (![] : Fin 0 → Fin S810000.rank)
  bcast_S810000_S810000x1_0 : S810000.BroadcastsInDim S810000x1 (![0] : Fin 1 → Fin S810000x1.rank)
  bcast_S1x256_S100000x256_0_1 : S1x256.BroadcastsInDim S100000x256 (![0, 1] : Fin 2 → Fin S100000x256.rank)
  gather_S100000x256_S27x30000x1_S27x30000x256_2_0_n_n_0_2_1256_wf : GatherDims.WF S100000x256 S27x30000x1 S27x30000x256 [2] [0] [] [0] [] 2 ![1, 256]
  dot_S6000x256_S256x256_S6000x256_1_0_0_1_n_n_wf : DotDims.WF S6000x256 S256x256 S6000x256 [1] [0] [0] [1] [] []
  scatter_S100000x256_S810000x1_S810000x256_1_0_0_1_wf : ScatterDims.WF S100000x256 S810000x1 S810000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6000x256.size a ≤ S27x30000x256.size a
  hwx0_0 : ∀ i : grid0.Coords, EltTy.bits .bf16 = 32 ∨ (Rect.block (s := S27x30000x256) S1x6000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S27x256x256.size a
  hwx0_1 : ∀ i : grid0.Coords, EltTy.bits .bf16 = 32 ∨ (Rect.block (s := S27x256x256) S1x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6000x256.size a ≤ S27x30000x256.size a
  hwx0_2 : ∀ i : grid0.Coords, EltTy.bits .f32 = 32 ∨ (Rect.block (s := S27x30000x256) S1x6000x256.size (cc0_transform_2 i) (hinb0_2 i)).WholeWords (EltTy.packing .f32)

variable [Facts₀]

def gather_S100000x256_S27x30000x1_S27x30000x256_2_0_n_n_0_2_1256 : GatherDims S100000x256 S27x30000x1 S27x30000x256 where
  offsetDims := [2]
  collapsedSliceDims := [0]
  operandBatchingDims := []
  startIndicesBatchingDims := []
  startIndexMap := [0]
  indexVectorDim := 2
  sliceSizes := ![1, 256]
  wf := gather_S100000x256_S27x30000x1_S27x30000x256_2_0_n_n_0_2_1256_wf
def dot_S6000x256_S256x256_S6000x256_1_0_0_1_n_n : DotDims S6000x256 S256x256 S6000x256 where
  lhsContracting := [1]
  rhsContracting := [0]
  lhsNonContracting := [0]
  rhsNonContracting := [1]
  lhsBatch := []
  rhsBatch := []
  wf := dot_S6000x256_S256x256_S6000x256_1_0_0_1_n_n_wf
def scatter_S100000x256_S810000x1_S810000x256_1_0_0_1 : ScatterDims S100000x256 S810000x1 S810000x256 where
  updateWindowDims := [1]
  insertedWindowDims := [0]
  scatterDimsToOperandDims := [0]
  indexVectorDim := 1
  wf := scatter_S100000x256_S810000x1_S810000x256_1_0_0_1_wf

abbrev win0_0 : Pipeline.Window sig grid0 :=
  Pipeline.Window.ofSpec (Memref.whole main_v8) S1x6000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x6000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S27x256x256 : Shape := ⟨3, ![27, 256, 256]⟩
abbrev S1x256 : Shape := ⟨2, ![1, 256]⟩
abbrev S27x30000 : Shape := ⟨2, ![27, 30000]⟩
abbrev S_ : Shape := ⟨0, ![]⟩
abbrev S27x30000x1 : Shape := ⟨3, ![27, 30000, 1]⟩
abbrev S27x30000x256 : Shape := ⟨3, ![27, 30000, 256]⟩
abbrev S810000 : Shape := ⟨1, ![810000]⟩
abbrev S810000x256 : Shape := ⟨2, ![810000, 256]⟩
abbrev S810000x1 : Shape := ⟨2, ![810000, 1]⟩

abbrev nBuf : Space → Nat
  | .hbm => 30
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S27x256x256, .f32⟩
  | .hbm, ⟨2, _⟩ => ⟨S1x256, .f32⟩
  | .hbm, ⟨3, _⟩ => ⟨S27x30000, .i32⟩
  | .hbm, ⟨4, _⟩ => ⟨S27x30000, .i32⟩
  | .hbm, ⟨5, _⟩ => ⟨S_, .i32⟩
  | .hbm, ⟨6, _⟩ => ⟨S27x30000, .i32⟩
  | .hbm, ⟨7, _⟩ => ⟨S27x30000, .i1⟩
  | .hbm, ⟨8, _⟩ => ⟨S_, .i32⟩
  | .hbm, ⟨9, _⟩ => ⟨S27x30000, .i32⟩
  | .hbm, ⟨10, _⟩ => ⟨S27x30000, .i32⟩
  | .hbm, ⟨11, _⟩ => ⟨S27x30000, .i32⟩
  | .hbm, ⟨12, _⟩ => ⟨S27x30000x1, .i32⟩
  | .hbm, ⟨13, _⟩ => ⟨S27x30000x256, .f32⟩
  | .hbm, ⟨14, _⟩ => ⟨S27x30000x256, .f32⟩
  | .hbm, ⟨15, _⟩ => ⟨S_, .f32⟩
  | .hbm, ⟨16, _⟩ => ⟨S100000x256, .f32⟩
  | .hbm, ⟨17, _⟩ => ⟨S810000, .i32⟩
  | .hbm, ⟨18, _⟩ => ⟨S810000x256, .f32⟩
  | .hbm, ⟨19, _⟩ => ⟨S_, .i32⟩
  | .hbm, ⟨20, _⟩ => ⟨S810000, .i32⟩
  | .hbm, ⟨21, _⟩ => ⟨S810000, .i1⟩
  | .hbm, ⟨22, _⟩ => ⟨S_, .i32⟩
  | .hbm, ⟨23, _⟩ => ⟨S810000, .i32⟩
  | .hbm, ⟨24, _⟩ => ⟨S810000, .i32⟩
  | .hbm, ⟨25, _⟩ => ⟨S810000, .i32⟩
  | .hbm, ⟨26, _⟩ => ⟨S810000x1, .i32⟩
  | .hbm, ⟨27, _⟩ => ⟨S100000x256, .f32⟩
  | .hbm, ⟨28, _⟩ => ⟨S100000x256, .f32⟩
  | .hbm, ⟨29, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S27x30000 : S_.BroadcastsInDim S27x30000 (![] : Fin 0 → Fin S27x30000.rank)
  bcast_S27x30000_S27x30000x1_0_1 : S27x30000.BroadcastsInDim S27x30000x1 (![0, 1] : Fin 2 → Fin S27x30000x1.rank)
  bcast_S_S100000x256 : S_.BroadcastsInDim S100000x256 (![] : Fin 0 → Fin S100000x256.rank)
  shapeCasts_S27x30000_S810000 : S27x30000.ShapeCasts S810000
  shapeCasts_S27x30000x256_S810000x256 : S27x30000x256.ShapeCasts S810000x256
  bcast_S_S810000 : S_.BroadcastsInDim S810000 (![] : Fin 0 → Fin S810000.rank)
  bcast_S810000_S810000x1_0 : S810000.BroadcastsInDim S810000x1 (![0] : Fin 1 → Fin S810000x1.rank)
  bcast_S1x256_S100000x256_0_1 : S1x256.BroadcastsInDim S100000x256 (![0, 1] : Fin 2 → Fin S100000x256.rank)
  gather_S100000x256_S27x30000x1_S27x30000x256_2_0_n_n_0_2_1256_wf : GatherDims.WF S100000x256 S27x30000x1 S27x30000x256 [2] [0] [] [0] [] 2 ![1, 256]
  dot_S27x30000x256_S27x256x256_S27x30000x256_2_1_1_2_0_0_wf : DotDims.WF S27x30000x256 S27x256x256 S27x30000x256 [2] [1] [1] [2] [0] [0]
  scatter_S100000x256_S810000x1_S810000x256_1_0_0_1_wf : ScatterDims.WF S100000x256 S810000x1 S810000x256 [1] [0] [0] 1

variable [Facts₀]

def gather_S100000x256_S27x30000x1_S27x30000x256_2_0_n_n_0_2_1256 : GatherDims S100000x256 S27x30000x1 S27x30000x256 where
  offsetDims := [2]
  collapsedSliceDims := [0]
  operandBatchingDims := []
  startIndicesBatchingDims := []
  startIndexMap := [0]
  indexVectorDim := 2
  sliceSizes := ![1, 256]
  wf := gather_S100000x256_S27x30000x1_S27x30000x256_2_0_n_n_0_2_1256_wf
def dot_S27x30000x256_S27x256x256_S27x30000x256_2_1_1_2_0_0 : DotDims S27x30000x256 S27x256x256 S27x30000x256 where
  lhsContracting := [2]
  rhsContracting := [1]
  lhsNonContracting := [1]
  rhsNonContracting := [2]
  lhsBatch := [0]
  rhsBatch := [0]
  wf := dot_S27x30000x256_S27x256x256_S27x30000x256_2_1_1_2_0_0_wf
def scatter_S100000x256_S810000x1_S810000x256_1_0_0_1 : ScatterDims S100000x256 S810000x1 S810000x256 where
  updateWindowDims := [1]
  insertedWindowDims := [0]
  scatterDimsToOperandDims := [0]
  indexVectorDim := 1
  wf := scatter_S100000x256_S810000x1_S810000x256_1_0_0_1_wf

class Facts : Prop extends Facts₀ where

variable [Facts]
-- ==== Proof.OffsetProduct.lean ====
/-
  The arithmetic the two programs share, stated with neither of them.

  A sparse convolution gathers, for each of the 27 kernel offsets `k` and each of the 30000 pairs `p` of that
  offset, one row of 256 input features, and multiplies it by the offset's own 256 × 256 weight matrix:

      product[k, p, d] = Σ_c rows[k, p, c] · weights[k, c, d]        (c over the 256 input channels).

  On the extended reals this sum is one value whatever the order and the grouping of its terms, so it does not
  matter whether it is computed as one batched contraction or tile by tile, 6000 pairs at a time.
-/
import Idealize.ShloMosaic.PureOps.Ideal
import Idealize.ShloMosaic.Lib.ValueIdx

noncomputable section

namespace Cert.SparseConv

open Idealize.ShloMosaic Idealize.ShloMosaic.ValueIdx

/-- The gathered rows, and equally the products: offset × pair × channel. -/
abbrev Rows : Shape := ⟨3, ![27, 30000, 256]⟩
/-- The weights: offset × input channel × output channel. -/
abbrev Weights : Shape := ⟨3, ![27, 256, 256]⟩

/-- Each gathered row times its offset's weight matrix: at `(k, p, d)` the sum over the input channels `c` of
    `rows[k, p, c] · weights[k, c, d]`. -/
def offsetProduct (rows : Rows.Idx → EReal) (weights : Weights.Idx → EReal) : Rows.Idx → EReal :=
  fun i => ∑ c : Fin 256, rows (ix3 (i 0) (i 1) c) * weights (ix3 (i 0) c (i 2))

/-- The same, read at named coordinates. -/
theorem offsetProduct_apply (rows : Rows.Idx → EReal) (weights : Weights.Idx → EReal) (k : Fin 27) (p : Fin 30000) (d : Fin 256) :
    offsetProduct rows weights (ix3 k p d) = ∑ c : Fin 256, rows (ix3 k p c) * weights (ix3 k c d) := rfl

end Cert.SparseConv

end
-- ==== Proof.ReferenceProduct.lean ====
/-
  The reference, read as: gather the rows, take each row times its offset's weights, then scatter and add the bias.

  Its batched contraction (offsets as the batch axis, input channels contracted) is, element by element, the sum
  `Σ_c rows[k, p, c] · weights[k, c, d]` of the specification. What follows the contraction — the reshape of
  offset × pair into one axis of 810000 updates, the scatter-add of the updates into a zero array at the
  (wrapped) output rows, and the bias added to every row — is carried as ONE function `afterProduct` of the
  products, and is never opened: the other program applies the very same operations to its own products.
-/
import proofs.«115964_j19258633356183_1_alg».proof.Proof.Gen.ReferenceIdeal.Read
import proofs.«115964_j19258633356183_1_alg».proof.Proof.OffsetProduct

noncomputable section

namespace Cert.ReferenceIdeal.RefValue

open Cert.ReferenceIdeal Cert.ReferenceIdeal.Gen Cert.ReferenceIdeal.Read
open Idealize.ShloMosaic Idealize.ShloMosaic.ValueIdx Cert.SparseConv

/-- Everything after the products: the updates laid out as 810000 rows, scattered and summed into a zero array
    at the output rows the map `outMap` names (a negative entry wrapped by the row count), the bias added to
    every row. -/
def afterProduct (product : FVec Ideal S27x30000x256 .f32)
    (bias : (⟨S1x256, .f32⟩ : BufTy).Contents (Elt Ideal)) (outMap : (⟨S27x30000, .i32⟩ : BufTy).Contents (Elt Ideal)) :
    FVec Ideal S100000x256 .f32 :=
  addf (F := Ideal)
    (Host.scatterAdd (F := Ideal) scatter_S100000x256_S810000x1_S810000x256_1_0_0_1 (val_main_v8 (F := Ideal)) (val_main_v16 (F := Ideal) outMap)
      (shapeCast S810000x256 product shapeCasts_S27x30000x256_S810000x256))
    (val_main_v18 (F := Ideal) bias)

/-- The reference's result is `afterProduct` of its contraction. -/
theorem result_eq_afterProduct (x0 : (⟨S100000x256, .f32⟩ : BufTy).Contents (Elt Ideal)) (x1 : (⟨S27x256x256, .f32⟩ : BufTy).Contents (Elt Ideal))
    (x2 : (⟨S1x256, .f32⟩ : BufTy).Contents (Elt Ideal)) (x3 x4 : (⟨S27x30000, .i32⟩ : BufTy).Contents (Elt Ideal)) :
    val_main_v19 (F := Ideal) x0 x1 x2 x3 x4 = afterProduct (val_main_v7 (F := Ideal) x0 x1 x3) x2 x4 := rfl

/-- The batched contraction, element by element, is the specification's sum over the input channels. -/
theorem contraction_eq (x0 : (⟨S100000x256, .f32⟩ : BufTy).Contents (Elt Ideal)) (x1 : (⟨S27x256x256, .f32⟩ : BufTy).Contents (Elt Ideal))
    (x3 : (⟨S27x30000, .i32⟩ : BufTy).Contents (Elt Ideal)) :
    val_main_v7 (F := Ideal) x0 x1 x3 = offsetProduct (val_main_v6 (F := Ideal) x0 x3) x1 := by
  funext i
  rw [val_main_v7_apply]
  have el : ∀ c : Fin 256, lidx_main_v7 i c = ix3 (i 0) (i 1) c := fun c =>
    funext fun a => Fin.ext (by match a with | ⟨0, _⟩ => rfl | ⟨1, _⟩ => rfl | ⟨2, _⟩ => rfl)
  have er : ∀ c : Fin 256, ridx_main_v7 i c = ix3 (i 0) c (i 2) := fun c =>
    funext fun a => Fin.ext (by match a with | ⟨0, _⟩ => rfl | ⟨1, _⟩ => rfl | ⟨2, _⟩ => rfl)
  unfold offsetProduct
  refine Finset.sum_congr rfl fun c _ => ?_
  rw [el c, er c]
  rfl

end Cert.ReferenceIdeal.RefValue

end
-- ==== Proof.TileProduct.lean ====
/-
  One tile of the product, as the kernel's body computes it.

  At a grid point the body holds 6000 gathered rows of one offset (a block of shape 1 × 6000 × 256) and that
  offset's weight matrix (1 × 256 × 256). It drops the leading unit axis of both, multiplies the 6000 × 256
  rows by the 256 × 256 weights into a zero accumulator, and puts the unit axis back. Read at row `r` and
  output channel `d` the result is therefore

      Σ_c rowsBlock[0, r, c] · weightsBlock[0, c, d],

  the accumulator's zero contributing nothing.
-/
import proofs.«115964_j19258633356183_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.TileValue

open Cert.KernelIdeal Cert.KernelIdeal.Gen
open Idealize.ShloMosaic Idealize.ShloMosaic.ValueIdx

/-- The tile's matrix product: rows × (input channels contracted) × output channels, no batch axis. -/
abbrev tileDot : DotDims S6000x256 S256x256 S6000x256 := dot_S6000x256_S256x256_S6000x256_1_0_0_1_n_n

/-! ## Which entries of the two operands a product entry reads -/

/-- The left operand is read in the output's row … -/
theorem lhs_row (j : S6000x256.Idx) (q : tileDot.contr.Idx) : (tileDot.lhsIdx j q 0).val = (j 0).val := by
  unfold DotDims.lhsIdx
  rw [dif_neg (show ¬(0 : Fin S6000x256.rank) ∈ tileDot.lhsBatch by decide),
    dif_pos (show (0 : Fin S6000x256.rank) ∈ tileDot.lhsNonContracting by decide)]
  rfl
/-- … at the contracted channel; -/
theorem lhs_chan (j : S6000x256.Idx) (q : tileDot.contr.Idx) : (tileDot.lhsIdx j q 1).val = (q ⟨0, by decide⟩).val :=
  tileDot.lhsIdx_val_of_single rfl j q
/-- the right operand at the contracted channel … -/
theorem rhs_chan (j : S6000x256.Idx) (q : tileDot.contr.Idx) : (tileDot.rhsIdx j q 0).val = (q ⟨0, by decide⟩).val :=
  tileDot.rhsIdx_val_of_single rfl j q
/-- … in the output's column. -/
theorem rhs_col (j : S6000x256.Idx) (q : tileDot.contr.Idx) : (tileDot.rhsIdx j q 1).val = (j 1).val := by
  unfold DotDims.rhsIdx
  rw [dif_neg (show ¬(1 : Fin S256x256.rank) ∈ tileDot.rhsBatch by decide),
    dif_pos (show (1 : Fin S256x256.rank) ∈ tileDot.rhsNonContracting by decide)]
  rfl

/-! ## The matrix product of a tile, entry by entry -/

/-- Rows times weights into a zero accumulator: at `(r, d)` the sum over the 256 channels `c` of
    `rows[r, c] · weights[c, d]`. -/
theorem matmul_zero_apply (rows : FVec Ideal S6000x256 .bf16) (weights : FVec Ideal S256x256 .bf16) (r : Fin 6000) (d : Fin 256) :
    matmul (F := Ideal) tileDot none rows weights (constant (F := Ideal) S6000x256 .f32 0x00000000#32) (ix2 r d)
      = ∑ c : Fin 256, rows (ix2 r c) * weights (ix2 c d) := by
  simp only [matmul]
  rw [Ideal.matmul_constant_zero_apply, ← Equiv.sum_comp (contrEquiv1 tileDot 256 rfl rfl).symm]
  refine Finset.sum_congr rfl fun c _ => ?_
  have hc := contrEquiv1_symm_val tileDot 256 rfl rfl c
  have el : tileDot.lhsIdx (ix2 r d) ((contrEquiv1 tileDot 256 rfl rfl).symm c) = ix2 r c := funext fun a => Fin.ext (by
    match a with
    | ⟨0, _⟩ => exact lhs_row _ _
    | ⟨1, _⟩ => exact (lhs_chan _ _).trans hc)
  have er : tileDot.rhsIdx (ix2 r d) ((contrEquiv1 tileDot 256 rfl rfl).symm c) = ix2 c d := funext fun a => Fin.ext (by
    match a with
    | ⟨0, _⟩ => exact (rhs_chan _ _).trans hc
    | ⟨1, _⟩ => exact rhs_col _ _)
  rw [el, er]

/-! ## The body's stored value, entry by entry -/

/-- What the body stores, read at row `r` and output channel `d` of its 1 × 6000 × 256 block. -/
theorem stored_apply (rowsBlock : Vec Ideal S1x6000x256 .bf16) (weightsBlock : Vec Ideal S1x256x256 .bf16) (r : Fin 6000) (d : Fin 256) :
    k0_pay1 (F := Ideal) rowsBlock weightsBlock (ix3 (0 : Fin 1) r d)
      = ∑ c : Fin 256, rowsBlock (ix3 (0 : Fin 1) r c) * weightsBlock (ix3 (0 : Fin 1) c d) := by
  unfold k0_pay1
  refine (shapeCast_apply _ shapeCasts_S6000x256_S1x6000x256 (ix3 (0 : Fin 1) r d) (ix2 r d) (by
    rewrite [Shape.rowMajor_val_two, Shape.rowMajor_val_three]
    show r.val * 256 + d.val = ((0 : Fin 1).val * 6000 + r.val) * 256 + d.val
    simp)).trans ?_
  refine (matmul_zero_apply _ _ r d).trans ?_
  refine Finset.sum_congr rfl fun c _ => ?_
  have hl : shapeCast S6000x256 rowsBlock shapeCasts_S1x6000x256_S6000x256 (ix2 r c) = rowsBlock (ix3 (0 : Fin 1) r c) :=
    shapeCast_apply rowsBlock shapeCasts_S1x6000x256_S6000x256 (ix2 r c) (ix3 (0 : Fin 1) r c) (by
      rewrite [Shape.rowMajor_val_two, Shape.rowMajor_val_three]
      show ((0 : Fin 1).val * 6000 + r.val) * 256 + c.val = r.val * 256 + c.val
      simp)
  have hr : shapeCast S256x256 weightsBlock shapeCasts_S1x256x256_S256x256 (ix2 c d) = weightsBlock (ix3 (0 : Fin 1) c d) :=
    shapeCast_apply weightsBlock shapeCasts_S1x256x256_S256x256 (ix2 c d) (ix3 (0 : Fin 1) c d) (by
      rewrite [Shape.rowMajor_val_two, Shape.rowMajor_val_three]
      show ((0 : Fin 1).val * 256 + c.val) * 256 + d.val = c.val * 256 + d.val
      simp)
  rw [hl, hr]

end Cert.KernelIdeal.TileValue

end
-- ==== Proof.ProductArray.lean ====
/-
  From tiles to the whole array of products.

  The grid has one point per (offset `k`, group `b` of 6000 consecutive pairs): 27 × 5 points. At the point
  `(k, b)` the body is handed rows `6000·b … 6000·b + 5999` of offset `k` of the gathered rows and the whole
  weight matrix of offset `k`, and what it leaves is written back to the same rows of offset `k` of the
  product array. So the tile left at a point is exactly that point's block of the ONE function
  `offsetProduct rows weights`, where `rows` and `weights` are the two arrays as the region finds them; and
  since every (offset, pair) lies in the block of the point `(k, pair / 6000)`, the blocks cover the array and
  the array ends as that function.
-/
import proofs.«115964_j19258633356183_1_alg».proof.Proof.Gen.KernelIdeal.Frame
import proofs.«115964_j19258633356183_1_alg».proof.Proof.TileProduct
import proofs.«115964_j19258633356183_1_alg».proof.Proof.OffsetProduct

set_option maxRecDepth 16384

noncomputable section

namespace Cert.KernelIdeal.ProductValue

open Cert.KernelIdeal Cert.KernelIdeal.Gen Cert.KernelIdeal.TileValue Cert.SparseConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The body's loads and its store start at the origin of their buffers. -/
theorem origin : (![0, 0, 0] : Fin 3 → Nat) = fun _ => 0 := funext fun a => by fin_cases a <;> rfl

/-! ## A tile is a block of the product -/

/-- If a block of rows is rows `6000·b + r` of offset `k`, and a block of weights is the matrix of offset `k`,
    then the body's tile at `(r, d)` is the product at `(k, 6000·b + r, d)`. -/
theorem tile_eq_product (rows : Rows.Idx → EReal) (weights : Weights.Idx → EReal)
    (rowsBlock : Vec Ideal S1x6000x256 .bf16) (weightsBlock : Vec Ideal S1x256x256 .bf16)
    (k : Fin 27) (b : Nat) (hb : b ≤ 4)
    (hrows : ∀ (r : Fin 6000) (c : Fin 256), rowsBlock (ix3 (0 : Fin 1) r c) = rows (ix3 k ⟨b * 6000 + r.val, by omega⟩ c))
    (hweights : ∀ c d : Fin 256, weightsBlock (ix3 (0 : Fin 1) c d) = weights (ix3 k c d))
    (r : Fin 6000) (d : Fin 256) :
    k0_pay1 (F := Ideal) rowsBlock weightsBlock (ix3 (0 : Fin 1) r d)
      = offsetProduct rows weights (ix3 k ⟨b * 6000 + r.val, by omega⟩ d) := by
  rw [stored_apply, offsetProduct_apply]
  refine Finset.sum_congr rfl fun c _ => ?_
  rw [hrows r c, hweights c d]

/-! ## Where each window's block sits -/

/-- The three index maps, decided over the 135 points: the rows' window and the products' window move together
    (offset on the first axis, group of pairs on the second), the weights' window follows the offset only, and
    the last axis is never split. -/
theorem index_maps : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 26
    ∧ win0_2.index t (1 : Fin 3) ≤ 4
    ∧ win0_2.index t (2 : Fin 3) = 0 :=
  (by decide +kernel : ∀ t : Fin grid0.N, _)

/-- Every (offset, group of pairs) is some point's block of the products. -/
theorem every_block : ∀ (k : Fin 27) (b : Fin 5), ∃ t : Fin cfg0.N, win0_2.index t = ![k.val, b.val, 0] :=
  (by decide +kernel : ∀ (k : Fin 27) (b : Fin 5), ∃ t : Fin grid0.N, win0_2.index t = ![k.val, b.val, 0])

/-! ## What a point writes back -/

/-- WHAT POINT `t` WRITES BACK is block `t` of the product of the two arrays as the region finds them. -/
theorem flushed_eq (c : Dev nD) (t : Fin cfg0.N) :
    (dats m 0 c).flushed 2 t
      = ((cfg0.win 2).blk t).view.read (Elt Ideal) (offsetProduct (V m c main_v8) (V m c main_v1)) := by
  show (cfg0.win 2).cut (grid0.coords t) ((dats m 0 c).after 2 t) = _
  rw [after0_2]
  unfold out0_2
  rw [View.canon_unit_zero origin]
  simp only [View.ld_unit_zero (S := S1x6000x256) origin, View.ld_unit_zero (S := S1x256x256) origin]
  obtain ⟨e00, e01, e02, e10, e11, e12, b0, b1, b2⟩ := index_maps t
  funext j
  obtain ⟨z, r, d, rfl⟩ : ∃ (z : Fin 1) (r : Fin 6000) (d : Fin 256), j = ix3 z r d := ⟨j 0, j 1, j 2, eq_ix3 j⟩
  obtain rfl : z = 0 := Subsingleton.elim _ _
  show k0_pay1 (F := Ideal) (iblk m c 0 t) (iblk m c 1 t) (ix3 (0 : Fin 1) r d)
    = offsetProduct (V m c main_v8) (V m c main_v1) (((cfg0.win 2).blk t).view.emb (ix3 (0 : Fin 1) r d))
  have hout : ((cfg0.win 2).blk t).view.emb (ix3 (0 : Fin 1) r d)
      = ix3 (⟨win0_2.index t (0 : Fin 3), by omega⟩ : Fin 27) (⟨win0_2.index t (1 : Fin 3) * 6000 + r.val, by omega⟩ : Fin 30000) d := by
    funext a; apply Fin.ext
    match a with
    | ⟨0, _⟩ => show win0_2.index t (0 : Fin 3) * 1 + 1 * (0 : Fin 1).val = win0_2.index t (0 : Fin 3); simp
    | ⟨1, _⟩ => show win0_2.index t (1 : Fin 3) * 6000 + 1 * r.val = win0_2.index t (1 : Fin 3) * 6000 + r.val; omega
    | ⟨2, _⟩ => show win0_2.index t (2 : Fin 3) * 256 + 1 * d.val = d.val; omega
  rw [hout]
  refine tile_eq_product (V m c main_v8) (V m c main_v1) (iblk m c 0 t) (iblk m c 1 t)
    ⟨win0_2.index t (0 : Fin 3), by omega⟩ (win0_2.index t (1 : Fin 3)) b1 ?_ ?_ r d
  · intro r c'
    show V m c main_v8 (((cfg0.win 0).blk t).view.emb (ix3 (0 : Fin 1) r c')) = _
    have hin : ((cfg0.win 0).blk t).view.emb (ix3 (0 : Fin 1) r c')
        = ix3 (⟨win0_2.index t (0 : Fin 3), by omega⟩ : Fin 27) (⟨win0_2.index t (1 : Fin 3) * 6000 + r.val, by omega⟩ : Fin 30000) c' := by
      funext a; apply Fin.ext
      match a with
      | ⟨0, _⟩ => show win0_0.index t (0 : Fin 3) * 1 + 1 * (0 : Fin 1).val = win0_2.index t (0 : Fin 3); simp; omega
      | ⟨1, _⟩ => show win0_0.index t (1 : Fin 3) * 6000 + 1 * r.val = win0_2.index t (1 : Fin 3) * 6000 + r.val; omega
      | ⟨2, _⟩ => show win0_0.index t (2 : Fin 3) * 256 + 1 * c'.val = c'.val; omega
    rw [hin]
  · intro c' d'
    show V m c main_v1 (((cfg0.win 1).blk t).view.emb (ix3 (0 : Fin 1) c' d')) = _
    have hin : ((cfg0.win 1).blk t).view.emb (ix3 (0 : Fin 1) c' d')
        = ix3 (⟨win0_2.index t (0 : Fin 3), by omega⟩ : Fin 27) c' d' := by
      funext a; apply Fin.ext
      match a with
      | ⟨0, _⟩ => show win0_1.index t (0 : Fin 3) * 1 + 1 * (0 : Fin 1).val = win0_2.index t (0 : Fin 3); simp; omega
      | ⟨1, _⟩ => show win0_1.index t (1 : Fin 3) * 256 + 1 * c'.val = c'.val; omega
      | ⟨2, _⟩ => show win0_1.index t (2 : Fin 3) * 256 + 1 * d'.val = d'.val; omega
    rw [hin]

/-! ## The blocks cover the array -/

/-- An index of the product array is in point `t`'s block iff each coordinate is in the block's range on its axis. -/
theorem mem_block (t : Fin cfg0.N) (i : S27x30000x256.Idx) :
    i ∈ ((cfg0.win 2).blk t).view.set
      ↔ ∀ a : Fin 3, win0_2.index t a * S1x6000x256.size a ≤ (i a).val
          ∧ (i a).val < win0_2.index t a * S1x6000x256.size a + S1x6000x256.size a := by
  show i ∈ ((View.whole main_v9).slice (win0_2.rect t)).set ↔ _
  rw [View.set_slice_whole, Rect.mem_set_unit]
  exact Iff.rfl

/-- Every (offset, pair, channel) lies in the block of the point (offset, pair / 6000), which is written back. -/
theorem covered (i : S27x30000x256.Idx) :
    ∃ t : Fin cfg0.N, (cfg0.win 2).flush t = true ∧ i ∈ ((cfg0.win 2).blk t).view.set := by
  have hi0 : (i 0).val < 27 := (i 0).isLt
  have hi1 : (i 1).val < 30000 := (i 1).isLt
  have hi2 : (i 2).val < 256 := (i 2).isLt
  obtain ⟨t, ht⟩ := every_block ⟨(i 0).val, hi0⟩ ⟨(i 1).val / 6000, by omega⟩
  have q0 : win0_2.index t (0 : Fin 3) = (i 0).val := congrFun ht 0
  have q1 : win0_2.index t (1 : Fin 3) = (i 1).val / 6000 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 6000 ≤ (i 1).val ∧ (i 1).val < win0_2.index t (1 : Fin 3) * 6000 + 6000; omega
  | ⟨2, _⟩ => show win0_2.index t (2 : Fin 3) * 256 ≤ (i 2).val ∧ (i 2).val < win0_2.index t (2 : Fin 3) * 256 + 256; omega

/-! ## The array after the run -/

/-- THE PRODUCT ARRAY after every write-back is the product of the two arrays as the region finds them. -/
theorem product_array (c : Dev nD) :
    (dats m 0 c).arrAt 2 cfg0.N = offsetProduct (V m c main_v8) (V m c main_v1) :=
  (dats m 0 c).arrAt_eq_of_cover 2 _ (fun t _ => flushed_eq m c t) covered

end Cert.KernelIdeal.ProductValue

end
-- ==== Proof.WholeResult.lean ====
/-
  The whole result of the kernel program: before the tiled product, after it, and the run.

  BEFORE the region the program narrows the features and the weights to a 16-bit format — which changes nothing
  on the extended reals — and gathers, for every (offset, pair), the feature row the input map names (a negative
  entry wrapped by the row count). So the region finds, as its rows, exactly the rows the reference gathers from
  the features themselves, and as its weights the weights themselves.

  AFTER the region the program reshapes, scatters, sums and adds the bias exactly as the reference does after its
  contraction: the same operations, on the same bias and output map. They are carried as the ONE function
  `afterProduct` and never opened.

  Between the two, the region leaves the product of rows and weights (the blocks cover the array). Hence the
  result is `afterProduct (offsetProduct rows weights) bias outMap`: the reference's own result, once its batched
  contraction is read as the same sum over the input channels.
-/
import proofs.«115964_j19258633356183_1_alg».proof.Proof.Gen.KernelIdeal.Frame
import proofs.«115964_j19258633356183_1_alg».proof.Proof.ProductArray
import proofs.«115964_j19258633356183_1_alg».proof.Proof.ReferenceProduct
import Idealize.ShloMosaic.Lib.StableHlo.Run

set_option maxRecDepth 16384

noncomputable section

namespace Cert.KernelIdeal.WholeValue

open Cert.KernelIdeal Cert.KernelIdeal.Gen Cert.SparseConv
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-! ## Before the region -/

/-- Narrowing the features, wrapping the input map and gathering is, on the extended reals, the reference's
    gather of the features themselves (the narrowing is the identity; the wrap and the gather are the same
    operations). -/
theorem gather_bridge (features : FVec Ideal S100000x256 .f32) (inMap : IVec S27x30000 32) :
    Host.gather gather_S100000x256_S27x30000x1_S27x30000x256_2_0_n_n_0_2_1256 (truncf .bf16 features bitsLt_bf16_f32)
        (broadcastInDim S27x30000x1 ![0, 1] bcast_S27x30000_S27x30000x1_0_1
          (select (cmpi .slt inMap (broadcastInDim S27x30000 ![] bcast_S_S27x30000 (constantI S_ 32 0#32)))
            (addi inMap (broadcastInDim S27x30000 ![] bcast_S_S27x30000 (constantI S_ 32 100000#32))) inMap))
      = Cert.ReferenceIdeal.Read.val_main_v6 (F := Ideal) features inMap := by
  unfold Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
  rfl

/-- The weights as the region finds them are the weights. -/
theorem weights_at_entry (c : Dev nD) :
    (V m c main_v1 : S27x256x256.Idx → EReal) = m ((c : Thread nD τ).loc main_arg1) := by
  show StableHlo.after hostOps0 (fun b => m (c, b)) (Proc.devRef .tc main_v1) = _
  after_results
  rfl

/-- The rows as the region finds them are the rows the reference gathers. -/
theorem rows_at_entry (c : Dev nD) :
    (V m c main_v8 : S27x30000x256.Idx → EReal)
      = Cert.ReferenceIdeal.Read.val_main_v6 (F := Ideal) (m ((c : Thread nD τ).loc main_arg0)) (m ((c : Thread nD τ).loc main_arg3)) := by
  show StableHlo.after hostOps0 (fun b => m (c, b)) (Proc.devRef .tc main_v8) = _
  after_results
  exact gather_bridge _ _

/-! ## After the region -/

/-- The kernel program's operations after the region, applied to a product array, a bias and an output map, are
    the same operations the reference applies after its contraction. -/
theorem tail_bridge (product : FVec Ideal S27x30000x256 .f32) (bias : FVec Ideal S1x256 .f32) (outMap : IVec S27x30000 32) :
    addf (F := Ideal)
        (Host.scatterAdd (F := Ideal) scatter_S100000x256_S810000x1_S810000x256_1_0_0_1
          (broadcastInDim S100000x256 ![] bcast_S_S100000x256 (constant (F := Ideal) S_ .f32 0x00000000#32))
          (broadcastInDim S810000x1 ![0] bcast_S810000_S810000x1_0
            (select (cmpi .slt (shapeCast _ outMap shapeCasts_S27x30000_S810000) (broadcastInDim S810000 ![] bcast_S_S810000 (constantI S_ 32 0#32)))
              (addi (shapeCast _ outMap shapeCasts_S27x30000_S810000) (broadcastInDim S810000 ![] bcast_S_S810000 (constantI S_ 32 100000#32)))
              (shapeCast _ outMap shapeCasts_S27x30000_S810000)))
          (shapeCast _ product shapeCasts_S27x30000x256_S810000x256))
        (broadcastInDim S100000x256 ![0, 1] bcast_S1x256_S100000x256_0_1 bias)
      = Cert.ReferenceIdeal.RefValue.afterProduct product bias outMap := by
  unfold Cert.ReferenceIdeal.RefValue.afterProduct Cert.ReferenceIdeal.Read.val_main_v8 Cert.ReferenceIdeal.Read.val_main_cst
    Cert.ReferenceIdeal.Read.val_main_v16 Cert.ReferenceIdeal.Read.val_main_v15 Cert.ReferenceIdeal.Read.val_main_v14
    Cert.ReferenceIdeal.Read.val_main_v13 Cert.ReferenceIdeal.Read.val_main_c_2 Cert.ReferenceIdeal.Read.val_main_v12
    Cert.ReferenceIdeal.Read.val_main_v11 Cert.ReferenceIdeal.Read.val_main_c_1 Cert.ReferenceIdeal.Read.val_main_v9
    Cert.ReferenceIdeal.Read.val_main_v18
  rfl

/-- The operations after the region, run from any contents `W` of the buffers: the result is `afterProduct` of
    what `W` holds in the product array, the bias and the output map. -/
theorem tail_of_contents (W : Valuation τ sig (Elt Ideal)) :
    StableHlo.after (hostOps1 (F := Ideal)) W (Proc.devRef .tc main_v21)
      = Cert.ReferenceIdeal.RefValue.afterProduct (W (Proc.devRef .tc main_v9)) (W (Proc.devRef .tc main_arg2)) (W (Proc.devRef .tc main_arg4)) := by
  after_results
  exact tail_bridge _ _ _

/-! ## The result -/

/-- The result array: the reference's operations after its contraction, applied to the product of the gathered
    rows and the weights. -/
abbrev result (c : Dev nD) : FVec Ideal Cert.ReferenceIdeal.S100000x256 .f32 :=
  Cert.ReferenceIdeal.RefValue.afterProduct
    (offsetProduct
      (Cert.ReferenceIdeal.Read.val_main_v6 (F := Ideal) (m ((c : Thread nD τ).loc main_arg0)) (m ((c : Thread nD τ).loc main_arg3)))
      (m ((c : Thread nD τ).loc main_arg1)))
    (m ((c : Thread nD τ).loc main_arg2)) (m ((c : Thread nD τ).loc main_arg4))

/-- What the operations after the region leave in the result buffer. -/
theorem result_eq (c : Dev nD) :
    Pipeline.afterTail₀ cfgs (dats m) 0 (V0 m) [hostOps1] c main_v21 = result m c := by
  unfold Pipeline.afterTail₀
  rw [show ([hostOps1] : List (List (HloOp τ sig (Elt Ideal)))).flatten = hostOps1 from by
    simp only [List.flatten_cons, List.flatten_nil, List.append_nil]]
  refine (tail_of_contents _).trans ?_
  have hproduct : Pipeline.withArrays (cfgs 0).spec c (V0 m c) (fun w => (dats m 0 c).arrAt w (cfgs 0).N) (Proc.devRef .tc main_v9)
      = (dats m 0 c).arrAt 2 cfg0.N :=
    Pipeline.withArrays_arr spec0 launch0.win.arr_inj c _ _ 2
  have hbias : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have hmap : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  rw [hproduct, hbias, hmap, ProductValue.product_array m c, rows_at_entry m c, weights_at_entry m c]

/-! ## The run -/

/-- Every weakly fair execution of the kernel program terminates with the result buffer at `result` and the
    five arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.WholeValue

end
-- ==== Proof.lean ====
/-
  A sparse convolution computed two ways, equal on the extended reals.

  Both programs take features [100000 × 256], 27 weight matrices [256 × 256], a bias row, and two integer maps
  [27 × 30000]. For every kernel offset `k` and every pair `p` of that offset they gather the feature row the input
  map names, multiply it by the weight matrix of offset `k`,

      product[k, p, d] = Σ_c features[inMap[k, p], c] · weights[k, c, d],

  add the 810000 product rows into a zero array at the rows the output map names, and add the bias to every row.

  The reference does the multiplication as one batched contraction. The kernel program first narrows features and
  weights to a 16-bit format (the identity on the extended reals) and multiplies tile by tile: one grid point per
  offset and per group of 6000 pairs, each tile a 6000 × 256 by 256 × 256 matrix product into a zero accumulator,
  written back to its own rows of the product array. The tiles cover the array, and an entry of a tile is the same
  sum over the 256 input channels as the contraction's entry (the zero accumulator adds nothing). Everything before
  the product (the wrap of the input map, the gather) and everything after it (reshape, scatter-add, bias) is the
  same sequence of operations in both programs, applied to equal values, so it is carried along unopened.

  No step uses that the inputs are finite: the two sides are the same sum, term for term.
-/
import proofs.«115964_j19258633356183_1_alg».proof.Defs
import proofs.«115964_j19258633356183_1_alg».proof.Proof.Gen.Kernel
import proofs.«115964_j19258633356183_1_alg».proof.Proof.Gen.Kernel.Skeleton
import proofs.«115964_j19258633356183_1_alg».proof.Proof.Gen.Kernel.Launch
import proofs.«115964_j19258633356183_1_alg».proof.Proof.Gen.Kernel.Points
import proofs.«115964_j19258633356183_1_alg».proof.Proof.Gen.Kernel.Frame
import proofs.«115964_j19258633356183_1_alg».proof.Proof.Gen.KernelIdeal
import proofs.«115964_j19258633356183_1_alg».proof.Proof.Gen.KernelIdeal.Skeleton
import proofs.«115964_j19258633356183_1_alg».proof.Proof.Gen.KernelIdeal.Launch
import proofs.«115964_j19258633356183_1_alg».proof.Proof.Gen.KernelIdeal.Points
import proofs.«115964_j19258633356183_1_alg».proof.Proof.Gen.KernelIdeal.Frame
import proofs.«115964_j19258633356183_1_alg».proof.Proof.Gen.ReferenceIdeal
import proofs.«115964_j19258633356183_1_alg».proof.Proof.Gen.Pre_finite_inputs
import proofs.«115964_j19258633356183_1_alg».proof.Proof.Gen.ReferenceIdeal.Run
import proofs.«115964_j19258633356183_1_alg».proof.Proof.Gen.ReferenceIdeal.Read
import proofs.«115964_j19258633356183_1_alg».proof.Proof.OffsetProduct
import proofs.«115964_j19258633356183_1_alg».proof.Proof.ReferenceProduct
import proofs.«115964_j19258633356183_1_alg».proof.Proof.WholeResult
import Idealize.ShloMosaic.Adequacy
import Idealize.ShloMosaic.Init

noncomputable section

namespace Cert.Proof

open Idealize.ShloMosaic Idealize.SL.Sem

/-- The kernel program, word by word: it runs to the end, faults nowhere, and leaves its arguments as they were. -/
theorem frame_kernel : Cert.frame_Kernel := fun m ρ _ => Cert.Kernel.Gen.frame m ρ

/-- The same program on the extended reals. -/
theorem frame_kernelIdeal : Cert.frame_KernelIdeal := fun m ρ _ => Cert.KernelIdeal.Gen.frame m ρ

/-- The reference on the extended reals: its run, with the value of the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote none of its operations. -/
theorem preserves : Cert.preserves_Kernel_KernelIdeal := trivial

/-- From memories that agree on the five arguments both programs end with the same result array: the kernel
    program's is the shared operations after the product applied to the product of the gathered rows and the
    weights, and so is the reference's, its batched contraction being that product entry by entry. -/
theorem algebraic : Cert.algebraic_KernelIdeal_ReferenceIdeal := by
  intro m ρ m' ρ' _ hagree
  refine ⟨_, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v19_eq _ _ _ _ _).trans ?_
  refine (Cert.ReferenceIdeal.RefValue.result_eq_afterProduct _ _ _ _ _).trans ?_
  rw [Cert.ReferenceIdeal.RefValue.contraction_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
